-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S32x32 : Shape := ⟨2, ![32, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S8192x4096 .f32) (main_arg1 : FVec F S4096x4096 .f32) (main_arg2 : FVec F S32x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S32x32 : Shape := ⟨2, ![32, 32]⟩
abbrev S32x32x128 : Shape := ⟨3, ![32, 32, 128]⟩
abbrev S32x4096 : Shape := ⟨2, ![32, 4096]⟩
abbrev S2048x512 : Shape := ⟨2, ![2048, 512]⟩
abbrev S1024x512 : Shape := ⟨2, ![1024, 512]⟩
abbrev S8x512 : Shape := ⟨2, ![8, 512]⟩
abbrev S2048x1024 : Shape := ⟨2, ![2048, 1024]⟩
abbrev S8x128x512 : Shape := ⟨3, ![8, 128, 512]⟩
abbrev S8x1x512 : Shape := ⟨3, ![8, 1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x32x128, .f32⟩
  | .hbm, ⟨4, _⟩ => ⟨S32x4096, .f32⟩
  | .hbm, ⟨5, _⟩ => ⟨S8192x4096, .bf16⟩
  | .hbm, ⟨6, _⟩ => ⟨S4096x4096, .bf16⟩
  | .hbm, ⟨7, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S8x512, .f32⟩
  | .local _ .vmem, ⟨5, _⟩ => ⟨S8x512, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond1 (i : grid0.Coords) : BitVec 1 :=
  let arg2 : BitVec 32 := BitVec.ofNat 32 (i 2).val
  let c0_i32 : BitVec 32 := 0#32
  let v14 : BitVec 1 := Scalar.cmpi .eq arg2 c0_i32
  let v15 : BitVec 32 := Scalar.extui v14
  let c0_i32_5 : BitVec 32 := 0#32
  let v16 : BitVec 1 := Scalar.cmpi .ne v15 c0_i32_5
  v16

def k0_cond2 (i : grid0.Coords) : BitVec 1 :=
  let arg2 : BitVec 32 := BitVec.ofNat 32 (i 2).val
  let c0_i32_6 : BitVec 32 := 0#32
  let v17 : BitVec 1 := Scalar.cmpi .ne arg2 c0_i32_6
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S32x32_S32x32x128_0_1 : S32x32.BroadcastsInDim S32x32x128 (![0, 1] : Fin 2 → Fin S32x32x128.rank)
  shapeCasts_S32x32x128_S32x4096 : S32x32x128.ShapeCasts S32x4096
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S1024x512_S8x128x512 : S1024x512.ShapeCasts S8x128x512
  shapeCasts_S8x512_S8x1x512 : S8x512.ShapeCasts S8x1x512
  broadcasts_S8x1x512_S8x128x512 : S8x1x512.Broadcasts S8x128x512
  shapeCasts_S8x128x512_S1024x512 : S8x128x512.ShapeCasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S32x32 : Shape := ⟨2, ![32, 32]⟩
abbrev S32x128x32x128 : Shape := ⟨4, ![32, 128, 32, 128]⟩
abbrev S32x1x32x1 : Shape := ⟨4, ![32, 1, 32, 1]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S32x32, .f32⟩
  | .hbm, ⟨3, _⟩ => ⟨S32x128x32x128, .f32⟩
  | .hbm, ⟨4, _⟩ => ⟨S32x1x32x1, .f32⟩
  | .hbm, ⟨5, _⟩ => ⟨S32x128x32x128, .f32⟩
  | .hbm, ⟨6, _⟩ => ⟨S32x128x32x128, .f32⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S4096x4096_S32x128x32x128 : S4096x4096.ShapeCasts S32x128x32x128
  bcast_S32x32_S32x1x32x1_0_2 : S32x32.BroadcastsInDim S32x1x32x1 (![0, 2] : Fin 2 → Fin S32x1x32x1.rank)
  bcast_S32x1x32x1_S32x128x32x128_0_1_2_3 : S32x1x32x1.BroadcastsInDim S32x128x32x128 (![0, 1, 2, 3] : Fin 4 → Fin S32x128x32x128.rank)
  shapeCasts_S32x128x32x128_S4096x4096 : S32x128x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BitsCases.lean ====
/-
  The grid of the one pallas_call is (4, 4, 8), walked in row-major order, so the point number t has
  reduction coordinate t mod 8. The body's two conditionals test that coordinate: the first is taken exactly
  when it is 0 (the output block is overwritten by the partial product), the second exactly when it is not
  (the partial product is added to the block). Hence at every point exactly one of them is taken, and the
  output window is never idle.
-/
import proofs.«104844_j1735166788248_2_alg».proof.Proof.Gen.Kernel.Frame
import proofs.«104844_j1735166788248_2_alg».proof.Proof.Gen.Kernel.Skeleton
import Idealize.ShloMosaic.Lib.Pipeline.Value

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional is taken exactly at the points whose reduction coordinate is 0. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the reduction coordinate, one of the two conditionals is taken: the output window is live everywhere. -/
theorem live_out (i : grid0.Coords) : cfg0.idle (3 : Fin 4) i = false := by
  show (!(k0_cond1 i == 1#1) && !(k0_cond2 i == 1#1)) = false
  unfold k0_cond1 k0_cond2
  dsimp only
  generalize (i 2) = k
  revert k
  decide

/-- Each window's current staging memref at point `t`, as the pipeline passes it to the body, and its wholeness. -/
abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

/-- The zero offsets of a rank-2 rectangle, however spelt. -/
theorem hz2 : (![0, 0] : Fin 2 → Nat) = fun _ => 0 := by
  funext a; match a with | ⟨0, _⟩ => rfl | ⟨1, _⟩ => rfl

/-- What one whole-block store leaves in a whole staging buffer, read back: the stored block. -/
theorem read_whole_store {sp : Space} {S : Shape} {e : EltTy} (mr : Memref sig .tc sp S e)
    {off : Fin S.rank → Nat} (hz : off = fun _ => 0) (inb : ∀ a, off a + S.size a ≤ S.size a)
    (f : mr.view.ty.Contents (Elt F)) (w : S.Idx → Elt F e) :
    mr.view.read (Elt F) (mr.view.writes (Elt F) f [⟨Rect.unit off S.size inb, w⟩]) = w := by
  rw [View.read_writes_eq_canon _ _ _ (fun y => ⟨_, List.mem_singleton_self _, View.mem_set_unit_zero hz inb y⟩),
    View.canon_unit_zero hz]

end Cert.Kernel.Acc

end
-- ==== Proof.BitsBodyFirst.lean ====
/-
  The body at a point whose reduction coordinate is 0. It loads the three input blocks, forms the partial
  product — the left block times the transpose of the right block scaled row group by row group — and
  overwrites the whole output block with it; the second conditional is skipped. Whatever the output buffer
  held before is irrelevant. The input buffers are only read.
-/
import proofs.«104844_j1735166788248_2_alg».proof.Proof.BitsCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging buffers holding the blocks `x0`, `x1`, `x2` and an output buffer holding anything, with the
    first conditional taken and the second not, the body ends with the inputs as they were and the output
    buffer at the partial product of the three blocks. -/
theorem body_first (c : Dev nD) (i : grid0.Coords)
    (arg3 : Memref sig .tc .vmem S2048x512 .bf16) (harg3 : arg3.IsWhole)
    (arg4 : Memref sig .tc .vmem S1024x512 .bf16) (harg4 : arg4.IsWhole)
    (arg5 : Memref sig .tc .vmem S8x512 .f32) (harg5 : arg5.IsWhole)
    (arg6 : Memref sig .tc .vmem S2048x1024 .f32) (harg6 : arg6.IsWhole)
    (h1 : k0_cond1 i = 1#1) (h2 : ¬ k0_cond2 i = 1#1)
    (x0 : Vec F S2048x512 .bf16) (x1 : Vec F S1024x512 .bf16) (x2 : Vec F S8x512 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ (iprop(owns (c : Thread nD τ) arg3 fullShare x0 ∗ owns (c : Thread nD τ) arg4 fullShare x1
            ∗ owns (c : Thread nD τ) arg5 fullShare x2
            ∗ owns (c : Thread nD τ) arg6 fullShare (k0_pay1 x0 x1 x2)) -∗ K ⟨⟩))
      ⊢ wp frame (wpE (defs₀ (F := F)) Variants.none c none) E (cc0__kernel i arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_whole_store arg6 hz2]
  simp only [View.readAt_eq_ld, harg3.read_unread, harg4.read_unread, harg5.read_unread, harg6.read_unread,
    View.ld_unit_zero (S := S2048x512) hz2, View.ld_unit_zero (S := S1024x512) hz2,
    View.ld_unit_zero (S := S8x512) hz2, View.ld_unit_zero (S := S2048x1024) hz2]

end Cert.Kernel.Acc

end
-- ==== Proof.BitsBodyLater.lean ====
/-
  The body at a point whose reduction coordinate is not 0. It loads the three input blocks and the output
  block as the point before left it, forms the partial product of the input blocks, and overwrites the whole
  output block with the old block plus the partial product; the first conditional is skipped. The input
  buffers are only read.
-/
import proofs.«104844_j1735166788248_2_alg».proof.Proof.BitsCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging buffers holding the blocks `x0`, `x1`, `x2` and an output buffer holding `xo`, with the
    first conditional skipped and the second taken, the body ends with the inputs as they were and the output
    buffer at `xo` plus the partial product of the three blocks. -/
theorem body_later (c : Dev nD) (i : grid0.Coords)
    (arg3 : Memref sig .tc .vmem S2048x512 .bf16) (harg3 : arg3.IsWhole)
    (arg4 : Memref sig .tc .vmem S1024x512 .bf16) (harg4 : arg4.IsWhole)
    (arg5 : Memref sig .tc .vmem S8x512 .f32) (harg5 : arg5.IsWhole)
    (arg6 : Memref sig .tc .vmem S2048x1024 .f32) (harg6 : arg6.IsWhole)
    (h1 : ¬ k0_cond1 i = 1#1) (h2 : k0_cond2 i = 1#1)
    (x0 : Vec F S2048x512 .bf16) (x1 : Vec F S1024x512 .bf16) (x2 : Vec F S8x512 .f32)
    (xo : Vec F S2048x1024 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xo
        ∗ (iprop(owns (c : Thread nD τ) arg3 fullShare x0 ∗ owns (c : Thread nD τ) arg4 fullShare x1
            ∗ owns (c : Thread nD τ) arg5 fullShare x2
            ∗ owns (c : Thread nD τ) arg6 fullShare (k0_pay2 x0 x1 x2 xo)) -∗ K ⟨⟩))
      ⊢ wp frame (wpE (defs₀ (F := F)) Variants.none c none) E (cc0__kernel i arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2
  obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_whole_store arg6 hz2]
  simp only [View.readAt_eq_ld, harg3.read_unread, harg4.read_unread, harg5.read_unread, harg6.read_unread,
    View.ld_unit_zero (S := S2048x512) hz2, View.ld_unit_zero (S := S1024x512) hz2,
    View.ld_unit_zero (S := S8x512) hz2, View.ld_unit_zero (S := S2048x1024) hz2]

end Cert.Kernel.Acc

end
-- ==== Proof.BitsFrameRun.lean ====
/-
  The frame of the one pallas_call. The grid is (4, 4, 8); the last coordinate walks the reduction axis. The
  output block of a point depends on the first two coordinates only, so its staging buffer is carried through
  the eight points of one output block and written back after the eighth. What it holds after the body at
  point number n is defined by recursion on n: at a point whose reduction coordinate is 0 the partial product
  of that point's three input blocks, at any other point what the point before left plus that point's
  partial product. With this the body's two runs (one per conditional taken) give the body obligation at
  every point, and the library's launch theorem gives the run of the whole program: it terminates, faults
  nowhere, every array no window stages ends as it began, and the output array ends at what the write-backs
  of the carried blocks make it.
-/
import proofs.«104844_j1735166788248_2_alg».proof.Proof.BitsBodyFirst
import proofs.«104844_j1735166788248_2_alg».proof.Proof.BitsBodyLater

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The accumulation: after point number `n`, the partial product of that point's blocks if its reduction
    coordinate is 0, else what point `n - 1` left plus that partial product. -/
def accAt (c : Dev nD) : (n : ℕ) → n < cfg0.N → Vec F S2048x1024 .f32
  | 0, hn => k0_pay1 (iblk m c 0 ⟨0, hn⟩) (iblk m c 1 ⟨0, hn⟩) (iblk m c 2 ⟨0, hn⟩)
  | n + 1, hn =>
    if (n + 1) % 8 = 0 then
      k0_pay1 (iblk m c 0 ⟨n + 1, hn⟩) (iblk m c 1 ⟨n + 1, hn⟩) (iblk m c 2 ⟨n + 1, hn⟩)
    else
      k0_pay2 (iblk m c 0 ⟨n + 1, hn⟩) (iblk m c 1 ⟨n + 1, hn⟩) (iblk m c 2 ⟨n + 1, hn⟩) (accAt c n (Nat.lt_of_succ_lt hn))

/-- At a point whose reduction coordinate is 0 the buffer holds that point's partial product. -/
theorem accAt_first (c : Dev nD) (t : Fin cfg0.N) (h0 : t.val % 8 = 0) :
    accAt m c t.val t.isLt = k0_pay1 (iblk m c 0 t) (iblk m c 1 t) (iblk m c 2 t) := by
  obtain ⟨n, hn⟩ := t
  cases n with
  | zero => rfl
  | succ n => exact (if_pos h0).trans rfl

/-- At any other point it holds what the point before left plus that point's partial product. -/
theorem accAt_later (c : Dev nD) (t : Fin cfg0.N) (h0 : ¬t.val % 8 = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data on core `c`: the arrays as the region finds them; after the body at point `t` each input's
    buffer at its block and the output's at the accumulation; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point whose reduction coordinate is not 0 the output's current staging buffer holds what the body left
    at the point before: the point is not the first, the buffer was not written back in between (that happens
    after reduction coordinate 7 only), and the window is live. -/
theorem before3_later (c : Dev nD) (t : Fin cfg0.N) (h0 : ¬t.val % 8 = 0) (d) :
    (dats m 0 c).before 3 t d = accAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    live_out (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the reduction coordinate decides which
    conditional is taken; where the second is, the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [accAt_first m c t h0]
    iintro ⟨HΦ, Ho, ⟨%d0, H0⟩, ⟨%d1, H1⟩, ⟨%d2, H2⟩, ⟨%d3, H3⟩⟩
    iapply (body_first c (grid0.coords t) _ _ _ _ _ _ _ _ ((first_iff t).mpr h0) (fun h => (later_iff t).mp h h0)
      (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later m c t h0]
    simp only [before3_later m c t h0]
    iintro ⟨HΦ, Ho, ⟨%d0, H0⟩, ⟨%d1, H1⟩, ⟨%d2, H2⟩, ⟨%d3, H3⟩⟩
    iapply (body_later c (grid0.coords t) _ _ _ _ _ _ _ _ (fun h => h0 ((first_iff t).mp h)) ((later_iff t).mpr h0)
      (iblk m c 0 t) (iblk m c 1 t) (iblk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: the output window is live everywhere, so each window is
    handed back at what the proof data says the body leaves. -/
theorem body_obligation (c : Dev nD) : BodyObligation (dats (F := F) m 0 c) (defs₀ (F := F)) Variants.none () Set.univ := fun t => by
  rw [bigSep_W0, bigSep_W0, live_out (cfg0.grid.coords t)]
  exact sound_body m c t

/-! ## The run and the frame -/

set_option backward.isDefEq.respectTransparency.types false in
/-- From any memory with zero counters every weakly fair execution of the program terminates, and every final
    state has every windowed array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Acc

end
-- ==== Proof.IdealCases.lean ====
/-
  The grid of the one pallas_call is (4, 4, 8), walked in row-major order, so the point number t has
  reduction coordinate t mod 8. The body's two conditionals test that coordinate: the first is taken exactly
  when it is 0 (the output block is overwritten by the partial product), the second exactly when it is not
  (the partial product is added to the block). Hence at every point exactly one of them is taken, and the
  output window is never idle.
-/
import proofs.«104844_j1735166788248_2_alg».proof.Proof.Gen.KernelIdeal.Frame
import proofs.«104844_j1735166788248_2_alg».proof.Proof.Gen.KernelIdeal.Skeleton
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional is taken exactly at the points whose reduction coordinate is 0. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the reduction coordinate, one of the two conditionals is taken: the output window is live everywhere. -/
theorem live_out (i : grid0.Coords) : cfg0.idle (3 : Fin 4) i = false := by
  show (!(k0_cond1 i == 1#1) && !(k0_cond2 i == 1#1)) = false
  unfold k0_cond1 k0_cond2
  dsimp only
  generalize (i 2) = k
  revert k
  decide

/-- Each window's current staging memref at point `t`, as the pipeline passes it to the body, and its wholeness. -/
abbrev ms0 (t : Fin cfg0.N) : Memref sig .tc .vmem S2048x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

/-- The zero offsets of a rank-2 rectangle, however spelt. -/
theorem hz2 : (![0, 0] : Fin 2 → Nat) = fun _ => 0 := by
  funext a; match a with | ⟨0, _⟩ => rfl | ⟨1, _⟩ => rfl

/-- What one whole-block store leaves in a whole staging buffer, read back: the stored block. -/
theorem read_whole_store {sp : Space} {S : Shape} {e : EltTy} (mr : Memref sig .tc sp S e)
    {off : Fin S.rank → Nat} (hz : off = fun _ => 0) (inb : ∀ a, off a + S.size a ≤ S.size a)
    (f : mr.view.ty.Contents (Elt F)) (w : S.Idx → Elt F e) :
    mr.view.read (Elt F) (mr.view.writes (Elt F) f [⟨Rect.unit off S.size inb, w⟩]) = w := by
  rw [View.read_writes_eq_canon _ _ _ (fun y => ⟨_, List.mem_singleton_self _, View.mem_set_unit_zero hz inb y⟩),
    View.canon_unit_zero hz]

end Cert.KernelIdeal.Acc

end
-- ==== Proof.IdealBodyFirst.lean ====
/-
  The body at a point whose reduction coordinate is 0. It loads the three input blocks, forms the partial
  product — the left block times the transpose of the right block scaled row group by row group — and
  overwrites the whole output block with it; the second conditional is skipped. Whatever the output buffer
  held before is irrelevant. The input buffers are only read.
-/
import proofs.«104844_j1735166788248_2_alg».proof.Proof.IdealCases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging buffers holding the blocks `x0`, `x1`, `x2` and an output buffer holding anything, with the
    first conditional taken and the second not, the body ends with the inputs as they were and the output
    buffer at the partial product of the three blocks. -/
theorem body_first (c : Dev nD) (i : grid0.Coords)
    (arg3 : Memref sig .tc .vmem S2048x512 .bf16) (harg3 : arg3.IsWhole)
    (arg4 : Memref sig .tc .vmem S1024x512 .bf16) (harg4 : arg4.IsWhole)
    (arg5 : Memref sig .tc .vmem S8x512 .f32) (harg5 : arg5.IsWhole)
    (arg6 : Memref sig .tc .vmem S2048x1024 .f32) (harg6 : arg6.IsWhole)
    (h1 : k0_cond1 i = 1#1) (h2 : ¬ k0_cond2 i = 1#1)
    (x0 : Vec F S2048x512 .bf16) (x1 : Vec F S1024x512 .bf16) (x2 : Vec F S8x512 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ (iprop(owns (c : Thread nD τ) arg3 fullShare x0 ∗ owns (c : Thread nD τ) arg4 fullShare x1
            ∗ owns (c : Thread nD τ) arg5 fullShare x2
            ∗ owns (c : Thread nD τ) arg6 fullShare (k0_pay1 x0 x1 x2)) -∗ K ⟨⟩))
      ⊢ wp frame (wpE (defs₀ (F := F)) Variants.none c none) E (cc0__kernel i arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_whole_store arg6 hz2]
  simp only [View.readAt_eq_ld, harg3.read_unread, harg4.read_unread, harg5.read_unread, harg6.read_unread,
    View.ld_unit_zero (S := S2048x512) hz2, View.ld_unit_zero (S := S1024x512) hz2,
    View.ld_unit_zero (S := S8x512) hz2, View.ld_unit_zero (S := S2048x1024) hz2]

end Cert.KernelIdeal.Acc

end
-- ==== Proof.IdealBodyLater.lean ====
/-
  The body at a point whose reduction coordinate is not 0. It loads the three input blocks and the output
  block as the point before left it, forms the partial product of the input blocks, and overwrites the whole
  output block with the old block plus the partial product; the first conditional is skipped. The input
  buffers are only read.
-/
import proofs.«104844_j1735166788248_2_alg».proof.Proof.IdealCases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging buffers holding the blocks `x0`, `x1`, `x2` and an output buffer holding `xo`, with the
    first conditional skipped and the second taken, the body ends with the inputs as they were and the output
    buffer at `xo` plus the partial product of the three blocks. -/
theorem body_later (c : Dev nD) (i : grid0.Coords)
    (arg3 : Memref sig .tc .vmem S2048x512 .bf16) (harg3 : arg3.IsWhole)
    (arg4 : Memref sig .tc .vmem S1024x512 .bf16) (harg4 : arg4.IsWhole)
    (arg5 : Memref sig .tc .vmem S8x512 .f32) (harg5 : arg5.IsWhole)
    (arg6 : Memref sig .tc .vmem S2048x1024 .f32) (harg6 : arg6.IsWhole)
    (h1 : ¬ k0_cond1 i = 1#1) (h2 : k0_cond2 i = 1#1)
    (x0 : Vec F S2048x512 .bf16) (x1 : Vec F S1024x512 .bf16) (x2 : Vec F S8x512 .f32)
    (xo : Vec F S2048x1024 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xo
        ∗ (iprop(owns (c : Thread nD τ) arg3 fullShare x0 ∗ owns (c : Thread nD τ) arg4 fullShare x1
            ∗ owns (c : Thread nD τ) arg5 fullShare x2
            ∗ owns (c : Thread nD τ) arg6 fullShare (k0_pay2 x0 x1 x2 xo)) -∗ K ⟨⟩))
      ⊢ wp frame (wpE (defs₀ (F := F)) Variants.none c none) E (cc0__kernel i arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1; obtain rfl := harg5.eq_unread hf2
  obtain rfl := harg6.eq_unread hf3
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_whole_store arg6 hz2]
  simp only [View.readAt_eq_ld, harg3.read_unread, harg4.read_unread, harg5.read_unread, harg6.read_unread,
    View.ld_unit_zero (S := S2048x512) hz2, View.ld_unit_zero (S := S1024x512) hz2,
    View.ld_unit_zero (S := S8x512) hz2, View.ld_unit_zero (S := S2048x1024) hz2]

end Cert.KernelIdeal.Acc

end
-- ==== Proof.IdealFrameRun.lean ====
/-
  The frame of the one pallas_call. The grid is (4, 4, 8); the last coordinate walks the reduction axis. The
  output block of a point depends on the first two coordinates only, so its staging buffer is carried through
  the eight points of one output block and written back after the eighth. What it holds after the body at
  point number n is defined by recursion on n: at a point whose reduction coordinate is 0 the partial product
  of that point's three input blocks, at any other point what the point before left plus that point's
  partial product. With this the body's two runs (one per conditional taken) give the body obligation at
  every point, and the library's launch theorem gives the run of the whole program: it terminates, faults
  nowhere, every array no window stages ends as it began, and the output array ends at what the write-backs
  of the carried blocks make it.
-/
import proofs.«104844_j1735166788248_2_alg».proof.Proof.IdealBodyFirst
import proofs.«104844_j1735166788248_2_alg».proof.Proof.IdealBodyLater

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output's staging buffer holds after each point -/

/-- The accumulation: after point number `n`, the partial product of that point's blocks if its reduction
    coordinate is 0, else what point `n - 1` left plus that partial product. -/
def accAt (c : Dev nD) : (n : ℕ) → n < cfg0.N → Vec F S2048x1024 .f32
  | 0, hn => k0_pay1 (iblk m c 0 ⟨0, hn⟩) (iblk m c 1 ⟨0, hn⟩) (iblk m c 2 ⟨0, hn⟩)
  | n + 1, hn =>
    if (n + 1) % 8 = 0 then
      k0_pay1 (iblk m c 0 ⟨n + 1, hn⟩) (iblk m c 1 ⟨n + 1, hn⟩) (iblk m c 2 ⟨n + 1, hn⟩)
    else
      k0_pay2 (iblk m c 0 ⟨n + 1, hn⟩) (iblk m c 1 ⟨n + 1, hn⟩) (iblk m c 2 ⟨n + 1, hn⟩) (accAt c n (Nat.lt_of_succ_lt hn))

/-- At a point whose reduction coordinate is 0 the buffer holds that point's partial product. -/
theorem accAt_first (c : Dev nD) (t : Fin cfg0.N) (h0 : t.val % 8 = 0) :
    accAt m c t.val t.isLt = k0_pay1 (iblk m c 0 t) (iblk m c 1 t) (iblk m c 2 t) := by
  obtain ⟨n, hn⟩ := t
  cases n with
  | zero => rfl
  | succ n => exact (if_pos h0).trans rfl

/-- At any other point it holds what the point before left plus that point's partial product. -/
theorem accAt_later (c : Dev nD) (t : Fin cfg0.N) (h0 : ¬t.val % 8 = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data on core `c`: the arrays as the region finds them; after the body at point `t` each input's
    buffer at its block and the output's at the accumulation; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point whose reduction coordinate is not 0 the output's current staging buffer holds what the body left
    at the point before: the point is not the first, the buffer was not written back in between (that happens
    after reduction coordinate 7 only), and the window is live. -/
theorem before3_later (c : Dev nD) (t : Fin cfg0.N) (h0 : ¬t.val % 8 = 0) (d) :
    (dats m 0 c).before 3 t d = accAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    live_out (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the reduction coordinate decides which
    conditional is taken; where the second is, the output's buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 8 = 0
  · rw [accAt_first m c t h0]
    iintro ⟨HΦ, Ho, ⟨%d0, H0⟩, ⟨%d1, H1⟩, ⟨%d2, H2⟩, ⟨%d3, H3⟩⟩
    iapply (body_first c (grid0.coords t) _ _ _ _ _ _ _ _ ((first_iff t).mpr h0) (fun h => (later_iff t).mp h h0)
      (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later m c t h0]
    simp only [before3_later m c t h0]
    iintro ⟨HΦ, Ho, ⟨%d0, H0⟩, ⟨%d1, H1⟩, ⟨%d2, H2⟩, ⟨%d3, H3⟩⟩
    iapply (body_later c (grid0.coords t) _ _ _ _ _ _ _ _ (fun h => h0 ((first_iff t).mp h)) ((later_iff t).mpr h0)
      (iblk m c 0 t) (iblk m c 1 t) (iblk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: the output window is live everywhere, so each window is
    handed back at what the proof data says the body leaves. -/
theorem body_obligation (c : Dev nD) : BodyObligation (dats (F := F) m 0 c) (defs₀ (F := F)) Variants.none () Set.univ := fun t => by
  rw [bigSep_W0, bigSep_W0, live_out (cfg0.grid.coords t)]
  exact sound_body m c t

/-! ## The run and the frame -/

set_option backward.isDefEq.respectTransparency.types false in
/-- From any memory with zero counters every weakly fair execution of the program terminates, and every final
    state has every windowed array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Acc

end
-- ==== Proof.IdealPayload.lean ====
/-
  The body's arithmetic at the extended reals, read at an index.

  A change of float format is the identity there. The right block (1024 × 512) is viewed as 8 groups of 128
  rows; the scale block (8 × 512) is broadcast along the 128 rows of each group, so entry (q, k) of the right
  block is multiplied by entry (q / 128, k) of the scale block. The matrix unit, started from a zero
  accumulator, contracts the second axis of both operands: entry (r, q) of the partial product is the sum over
  the 512 values of k of left (r, k) times the scaled right (q, k). At a later point the body adds this to
  what the output block held.
-/
import proofs.«104844_j1735166788248_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx

/-- The right block after scaling, as the body computes it. -/
def scaled (x1 : Vec Ideal S1024x512 .bf16) (x2 : Vec Ideal S8x512 .f32) : FVec Ideal S1024x512 .bf16 :=
  truncf .bf16 (shapeCast S1024x512 (mulf
      (shapeCast S8x128x512 (extf .f32 (shapeCast S1024x512 x1 shapeCasts_S1024x512_S1024x512) bitsLt_bf16_f32) shapeCasts_S1024x512_S8x128x512)
      (broadcastTo S8x128x512 (shapeCast S8x1x512 (shapeCast S8x512 x2 shapeCasts_S8x512_S8x512) shapeCasts_S8x512_S8x1x512) broadcasts_S8x1x512_S8x128x512))
    shapeCasts_S8x128x512_S1024x512) bitsLt_bf16_f32

/-- Entry (q, k) of the scaled right block: the entry times the scale of its row group at column k. -/
theorem scaled_apply (x1 : Vec Ideal S1024x512 .bf16) (x2 : Vec Ideal S8x512 .f32) (q : Fin 1024) (k : Fin 512) :
    scaled x1 x2 (ix2 q k) = x1 (ix2 q k) * x2 (ix2 (⟨q.val / 128, by omega⟩ : Fin 8) k) := by
  unfold scaled
  rw [truncf_apply]
  have hq : q.val < 1024 := q.isLt
  have hk : k.val < 512 := k.isLt
  refine (shapeCast_apply _ shapeCasts_S8x128x512_S1024x512 (ix2 q k)
    (ix3 (⟨q.val / 128, by omega⟩ : Fin 8) (⟨q.val % 128, by omega⟩ : Fin 128) k) (by
      rw [Shape.rowMajor_val_three, Shape.rowMajor_val_two]
      show (q.val / 128 * 128 + q.val % 128) * 512 + k.val = q.val * 512 + k.val
      omega)).trans ?_
  rw [mulf_apply]
  refine congrArg₂ (· * ·) ?_ ?_
  · refine (shapeCast_apply _ shapeCasts_S1024x512_S8x128x512 _ (ix2 q k) (by
      rw [Shape.rowMajor_val_three, Shape.rowMajor_val_two]
      show q.val * 512 + k.val = (q.val / 128 * 128 + q.val % 128) * 512 + k.val
      omega)).trans ?_
    rw [extf_apply, shapeCast_self]
  · refine (broadcastTo_apply _ broadcasts_S8x1x512_S8x128x512 _
      (ix3 (⟨q.val / 128, by omega⟩ : Fin 8) (⟨0, by omega⟩ : Fin 1) k) (fun a => by
        match a with
        | ⟨0, _⟩ => show q.val / 128 = if (8 : Nat) = 1 then 0 else q.val / 128; rw [if_neg (by decide)]
        | ⟨1, _⟩ => show 0 = if (1 : Nat) = 1 then 0 else q.val % 128; rw [if_pos rfl]
        | ⟨2, _⟩ => show k.val = if (512 : Nat) = 1 then 0 else k.val; rw [if_neg (by decide)])).trans ?_
    refine (shapeCast_apply _ shapeCasts_S8x512_S8x1x512 _ (ix2 (⟨q.val / 128, by omega⟩ : Fin 8) k) (by
      rw [Shape.rowMajor_val_three, Shape.rowMajor_val_two]
      show q.val / 128 * 512 + k.val = (q.val / 128 * 1 + 0) * 512 + k.val
      omega)).trans ?_
    rw [shapeCast_self]

/-- The body's first payload is the matrix product of the left block and the scaled right block into zero. -/
theorem pay1_eq (x0 : Vec Ideal S2048x512 .bf16) (x1 : Vec Ideal S1024x512 .bf16) (x2 : Vec Ideal S8x512 .f32) :
    k0_pay1 (F := Ideal) x0 x1 x2
      = matmul dot_S2048x512_S1024x512_S2048x1024_1_1_0_0_n_n none (shapeCast S2048x512 x0 shapeCasts_S2048x512_S2048x512 : FVec Ideal S2048x512 .bf16)
          (scaled x1 x2) (constant S2048x1024 .f32 0x00000000#32) := rfl

theorem lhs0 (i : S2048x1024.Idx) (p : dot_S2048x512_S1024x512_S2048x1024_1_1_0_0_n_n.contr.Idx) :
    (dot_S2048x512_S1024x512_S2048x1024_1_1_0_0_n_n.lhsIdx i p 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem lhs1 (i : S2048x1024.Idx) (p : dot_S2048x512_S1024x512_S2048x1024_1_1_0_0_n_n.contr.Idx) :
    (dot_S2048x512_S1024x512_S2048x1024_1_1_0_0_n_n.lhsIdx i p 1).val = (p ⟨0, by decide⟩).val :=
  dot_S2048x512_S1024x512_S2048x1024_1_1_0_0_n_n.lhsIdx_val_of_single rfl i p
theorem rhs0 (i : S2048x1024.Idx) (p : dot_S2048x512_S1024x512_S2048x1024_1_1_0_0_n_n.contr.Idx) :
    (dot_S2048x512_S1024x512_S2048x1024_1_1_0_0_n_n.rhsIdx i p 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem rhs1 (i : S2048x1024.Idx) (p : dot_S2048x512_S1024x512_S2048x1024_1_1_0_0_n_n.contr.Idx) :
    (dot_S2048x512_S1024x512_S2048x1024_1_1_0_0_n_n.rhsIdx i p 1).val = (p ⟨0, by decide⟩).val :=
  dot_S2048x512_S1024x512_S2048x1024_1_1_0_0_n_n.rhsIdx_val_of_single rfl i p

/-- Entry (r, q) of the partial product: the sum over the 512 columns of left (r, k) times right (q, k) times
    the scale of q's row group at column k. -/
theorem pay1_apply (x0 : Vec Ideal S2048x512 .bf16) (x1 : Vec Ideal S1024x512 .bf16) (x2 : Vec Ideal S8x512 .f32)
    (r : Fin 2048) (q : Fin 1024) :
    k0_pay1 (F := Ideal) x0 x1 x2 (ix2 r q)
      = ∑ k : Fin 512, x0 (ix2 r k) * (x1 (ix2 q k) * x2 (ix2 (⟨q.val / 128, by have := q.isLt; omega⟩ : Fin 8) k)) := by
  rw [pay1_eq, shapeCast_self]
  simp only [matmul]
  rw [Ideal.matmul_constant_zero_apply,
    ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 r q) ((ValueIdx.contrEquiv1 dot_S2048x512_S1024x512_S2048x1024_1_1_0_0_n_n 512 rfl rfl).symm k) = ix2 r k := funext fun a => Fin.ext (by
    match a with
    | ⟨0, _⟩ => exact lhs0 _ _
    | ⟨1, _⟩ => exact (lhs1 _ _).trans hk)
  have er : dot_S2048x512_S1024x512_S2048x1024_1_1_0_0_n_n.rhsIdx (ix2 r q) ((ValueIdx.contrEquiv1 dot_S2048x512_S1024x512_S2048x1024_1_1_0_0_n_n 512 rfl rfl).symm k) = ix2 q k := funext fun a => Fin.ext (by
    match a with
    | ⟨0, _⟩ => exact rhs0 _ _
    | ⟨1, _⟩ => exact (rhs1 _ _).trans hk)
  rw [el, er, scaled_apply]

/-- The body's second payload at an index: what the output block held there plus the partial product there. -/
theorem pay2_apply (x0 : Vec Ideal S2048x512 .bf16) (x1 : Vec Ideal S1024x512 .bf16) (x2 : Vec Ideal S8x512 .f32)
    (xo : Vec Ideal S2048x1024 .f32) (j : S2048x1024.Idx) :
    k0_pay2 (F := Ideal) x0 x1 x2 xo j = xo j + k0_pay1 (F := Ideal) x0 x1 x2 j := by
  unfold k0_pay2
  rw [shapeCast_self]
  rfl

end Cert.KernelIdeal.Val

end
-- ==== Proof.Spec.lean ====
/-
  The mathematics of the block-scaled matrix product, over the extended reals.

  The weight matrix W (4096 × 4096) is dequantized entry by entry: entry (n, k) is multiplied by the scale of
  the 128 × 128 tile it lies in, Sc (n / 128, k / 128). The result at (m, n) is the sum over all 4096 values of
  k of X (m, k) times the dequantized W (n, k).

  A sum over 4096 consecutive indices is the sum, over 8 chunks, of the sums over the 512 indices of each chunk;
  only commutativity and associativity of addition are used, so this holds in any commutative monoid and in
  particular on the extended reals, infinities included.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- Row `b * 2048 + r` of the left operand: row `r` of its row block `b`. -/
abbrev xrow (b : Fin 4) (r : Fin 2048) : Fin 8192 := ⟨b.val * 2048 + r.val, by omega⟩
/-- Row `b * 1024 + q` of the weight: row `q` of its row block `b`. -/
abbrev wrow (b : Fin 4) (q : Fin 1024) : Fin 4096 := ⟨b.val * 1024 + q.val, by omega⟩
/-- Column `a * 512 + k`: column `k` of chunk `a` of the reduction axis. -/
abbrev kcol (a : Fin 8) (k : Fin 512) : Fin 4096 := ⟨a.val * 512 + k.val, by omega⟩

/-- The coordinates of grid point number `n` of the (4, 4, 8) grid walked in row-major order. -/
abbrev pI (n : ℕ) (hn : n < 128) : Fin 4 := ⟨n / 32, by omega⟩
abbrev pJ (n : ℕ) (hn : n < 128) : Fin 4 := ⟨n / 8 % 4, by omega⟩
abbrev pK (n : ℕ) (hn : n < 128) : Fin 8 := ⟨n % 8, by omega⟩

/-- The dequantized weight entry: the stored entry times the scale of its 128 × 128 tile. -/
def deq (W : (⟨2, ![4096, 4096]⟩ : Shape).Idx → EReal) (Sc : (⟨2, ![32, 32]⟩ : Shape).Idx → EReal) (n k : Fin 4096) : EReal :=
  W (ix2 n k) * Sc (ix2 (⟨n.val / 128, by omega⟩ : Fin 32) (⟨k.val / 128, by omega⟩ : Fin 32))

/-- The block-scaled product, index by index. -/
def G (X : (⟨2, ![8192, 4096]⟩ : Shape).Idx → EReal) (W : (⟨2, ![4096, 4096]⟩ : Shape).Idx → EReal)
    (Sc : (⟨2, ![32, 32]⟩ : Shape).Idx → EReal) : (⟨2, ![8192, 4096]⟩ : Shape).Idx → EReal :=
  fun i => ∑ k : Fin 4096, X (ix2 (i 0) k) * deq W Sc (i 1) k

/-- The contribution of chunk `a` of the reduction axis to entry (mm, nn); zero for a chunk number out of range. -/
def chunk (X : (⟨2, ![8192, 4096]⟩ : Shape).Idx → EReal) (W : (⟨2, ![4096, 4096]⟩ : Shape).Idx → EReal)
    (Sc : (⟨2, ![32, 32]⟩ : Shape).Idx → EReal) (mm : Fin 8192) (nn : Fin 4096) (a : ℕ) : EReal :=
  if h : a < 8 then ∑ k : Fin 512, X (ix2 mm (kcol ⟨a, h⟩ k)) * deq W Sc nn (kcol ⟨a, h⟩ k) else 0

theorem chunk_of_lt (X : (⟨2, ![8192, 4096]⟩ : Shape).Idx → EReal) (W : (⟨2, ![4096, 4096]⟩ : Shape).Idx → EReal)
    (Sc : (⟨2, ![32, 32]⟩ : Shape).Idx → EReal) (mm : Fin 8192) (nn : Fin 4096) (a : ℕ) (h : a < 8) :
    chunk X W Sc mm nn a = ∑ k : Fin 512, X (ix2 mm (kcol ⟨a, h⟩ k)) * deq W Sc nn (kcol ⟨a, h⟩ k) := dif_pos h

/-- A sum over the 4096 indices of the reduction axis, chunk by chunk. -/
theorem sum_blocks {M : Type*} [AddCommMonoid M] (f : Fin 4096 → M) :
    ∑ k : Fin 4096, f k = ∑ a : Fin 8, ∑ k : Fin 512, f (kcol a k) := by
  rw [← Equiv.sum_comp (finProdFinEquiv (m := 8) (n := 512)) f, Fintype.sum_prod_type]
  refine Finset.sum_congr rfl fun a _ => Finset.sum_congr rfl fun k _ => congrArg f (Fin.ext ?_)
  show k.val + 512 * a.val = a.val * 512 + k.val
  omega

/-- The eight chunks' contributions add up to the whole entry. -/
theorem sum_chunks (X : (⟨2, ![8192, 4096]⟩ : Shape).Idx → EReal) (W : (⟨2, ![4096, 4096]⟩ : Shape).Idx → EReal)
    (Sc : (⟨2, ![32, 32]⟩ : Shape).Idx → EReal) (mm : Fin 8192) (nn : Fin 4096) :
    ∑ a ∈ Finset.range 8, chunk X W Sc mm nn a = G X W Sc (ix2 mm nn) := by
  rw [Finset.sum_range]
  show _ = ∑ k : Fin 4096, X (ix2 mm k) * deq W Sc nn k
  rw [sum_blocks]
  exact Finset.sum_congr rfl fun a _ => chunk_of_lt X W Sc mm nn a.val a.isLt

end Cert.Spec

end
-- ==== Proof.IdealBlocks.lean ====
/-
  What the region finds in the arrays its windows stage, and each window's block at a grid point, at the
  extended reals.

  Before the region the program rounds the two matrix operands to a narrower float format — the identity at
  the extended reals, so the staged arrays are the arguments themselves — and repeats every scale 128 times
  along the reduction axis, so entry (g, k) of the staged scale array is the scale (g, k / 128).

  Grid point number t of the (4, 4, 8) grid has coordinates (t / 32, t / 8 % 4, t % 8). The left window's
  block there is rows t / 32 · 2048 + r and columns t % 8 · 512 + k of the left operand; the right window's,
  rows t / 8 % 4 · 1024 + q and the same columns of the weight; the scale window's, rows t / 8 % 4 · 8 + g and
  the same columns of the repeated scales.
-/
import proofs.«104844_j1735166788248_2_alg».proof.Proof.Gen.KernelIdeal.Frame
import proofs.«104844_j1735166788248_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.Spec

variable (m : (ℓ : Loc nD τ sig) → Buf (Elt Ideal) ℓ)

/-- The windows' block indices at grid point number t, decided over the 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4 :=
  (by decide +kernel : ∀ t : Fin grid0.N, _)

/-- The staged left operand is the first argument. -/
theorem V_x (c : Dev nD) : (V m c main_v2 : S8192x4096.Idx → EReal) = m ((c : Thread nD τ).loc main_arg0) := by
  dsimp only [Gen.V, Gen.hostOps0]; after_results; rfl

/-- The staged right operand is the second argument. -/
theorem V_w (c : Dev nD) : (V m c main_v3 : S4096x4096.Idx → EReal) = m ((c : Thread nD τ).loc main_arg1) := by
  dsimp only [Gen.V, Gen.hostOps0]; after_results; rfl

/-- The staged scales are the third argument, each entry repeated 128 times along the second axis. -/
theorem V_s (c : Dev nD) : (V m c main_v1 : S32x4096.Idx → EReal)
    = shapeCast S32x4096 (broadcastInDim S32x32x128 ![0, 1] bcast_S32x32_S32x32x128_0_1 (m ((c : Thread nD τ).loc main_arg2)))
        shapeCasts_S32x32x128_S32x4096 := by
  dsimp only [Gen.V, Gen.hostOps0]; after_results; rfl

/-- Entry (r, k) of the left window's block at point t. -/
theorem blk_x (c : Dev nD) (t : Fin cfg0.N) (ht : t.val < 128) (r : Fin 2048) (k : Fin 512) :
    iblk m c 0 t (ix2 r k) = m ((c : Thread nD τ).loc main_arg0) (ix2 (xrow (pI t.val ht) r) (kcol (pK t.val ht) k)) := by
  obtain ⟨e0, e1, -⟩ := idx_facts t
  show V m c main_v2 (((cfg0.win 0).blk t).view.emb (ix2 r k)) = _
  rw [V_x]
  refine congrArg _ (funext fun a => Fin.ext ?_)
  match a with
  | ⟨0, _⟩ => show win0_0.index t (0 : Fin 2) * 2048 + 1 * r.val = t.val / 32 * 2048 + r.val; omega
  | ⟨1, _⟩ => show win0_0.index t (1 : Fin 2) * 512 + 1 * k.val = t.val % 8 * 512 + k.val; omega

/-- Entry (q, k) of the right window's block at point t. -/
theorem blk_w (c : Dev nD) (t : Fin cfg0.N) (ht : t.val < 128) (q : Fin 1024) (k : Fin 512) :
    iblk m c 1 t (ix2 q k) = m ((c : Thread nD τ).loc main_arg1) (ix2 (wrow (pJ t.val ht) q) (kcol (pK t.val ht) k)) := by
  obtain ⟨-, -, e2, e3, -⟩ := idx_facts t
  show V m c main_v3 (((cfg0.win 1).blk t).view.emb (ix2 q k)) = _
  rw [V_w]
  refine congrArg _ (funext fun a => Fin.ext ?_)
  match a with
  | ⟨0, _⟩ => show win0_1.index t (0 : Fin 2) * 1024 + 1 * q.val = t.val / 8 % 4 * 1024 + q.val; omega
  | ⟨1, _⟩ => show win0_1.index t (1 : Fin 2) * 512 + 1 * k.val = t.val % 8 * 512 + k.val; omega

/-- Entry (g, k) of the scale window's block at point t: the scale of row group t / 8 % 4 · 8 + g and of the
    column tile that column t % 8 · 512 + k lies in. -/
theorem blk_s (c : Dev nD) (t : Fin cfg0.N) (ht : t.val < 128) (g : Fin 8) (k : Fin 512) :
    iblk m c 2 t (ix2 g k) = m ((c : Thread nD τ).loc main_arg2)
      (ix2 (⟨t.val / 8 % 4 * 8 + g.val, by omega⟩ : Fin 32) (⟨(t.val % 8 * 512 + k.val) / 128, by omega⟩ : Fin 32)) := by
  obtain ⟨-, -, -, -, e4, e5, -⟩ := idx_facts t
  have hg : g.val < 8 := g.isLt
  have hk : k.val < 512 := k.isLt
  have he : ((cfg0.win 2).blk t).view.emb (ix2 g k)
      = ix2 (⟨t.val / 8 % 4 * 8 + g.val, by omega⟩ : Fin 32) (⟨t.val % 8 * 512 + k.val, by omega⟩ : Fin 4096) :=
    funext fun a => Fin.ext (by
      match a with
      | ⟨0, _⟩ => show win0_2.index t (0 : Fin 2) * 8 + 1 * g.val = t.val / 8 % 4 * 8 + g.val; omega
      | ⟨1, _⟩ => show win0_2.index t (1 : Fin 2) * 512 + 1 * k.val = t.val % 8 * 512 + k.val; omega)
  show V m c main_v1 (((cfg0.win 2).blk t).view.emb (ix2 g k)) = _
  rw [he, V_s]
  refine (shapeCast_apply _ shapeCasts_S32x32x128_S32x4096 _
    (ix3 (⟨t.val / 8 % 4 * 8 + g.val, by omega⟩ : Fin 32) (⟨(t.val % 8 * 512 + k.val) / 128, by omega⟩ : Fin 32)
      (⟨(t.val % 8 * 512 + k.val) % 128, by omega⟩ : Fin 128)) (by
      rw [Shape.rowMajor_val_three, Shape.rowMajor_val_two]
      show ((t.val / 8 % 4 * 8 + g.val) * 32 + (t.val % 8 * 512 + k.val) / 128) * 128 + (t.val % 8 * 512 + k.val) % 128
        = (t.val / 8 % 4 * 8 + g.val) * 4096 + (t.val % 8 * 512 + k.val)
      omega)).trans ?_
  exact broadcastInDim_apply _ bcast_S32x32_S32x32x128_0_1 _ _ _ (fun a => by
    match a with
    | ⟨0, _⟩ => show t.val / 8 % 4 * 8 + g.val = if (32 : Nat) = 1 then 0 else t.val / 8 % 4 * 8 + g.val; rw [if_neg (by decide)]
    | ⟨1, _⟩ => show (t.val % 8 * 512 + k.val) / 128 = if (32 : Nat) = 1 then 0 else (t.val % 8 * 512 + k.val) / 128; rw [if_neg (by decide)])

end Cert.KernelIdeal.Val

end
-- ==== Proof.IdealValue.lean ====
/-
  The value the idealized kernel leaves in its result array.

  At grid point number n the partial product of the three input blocks is, entry by entry, the contribution of
  chunk n % 8 of the reduction axis to the entry of the block-scaled product at row n / 32 · 2048 + r and
  column n / 8 % 4 · 1024 + q. By induction on n, the output's staging buffer after point n holds the sum of
  the contributions of chunks 0, …, n % 8: a point with n % 8 = 0 starts the sum afresh, any other adds its
  chunk to what the point before left (the same output block, since only the last coordinate moved). The
  buffer is written back exactly after the points with n % 8 = 7, when all eight chunks are in: the block
  written is then the block of the specification's function, and these blocks cover the result array.
-/
import proofs.«104844_j1735166788248_2_alg».proof.Proof.IdealFrameRun
import proofs.«104844_j1735166788248_2_alg».proof.Proof.IdealPayload
import proofs.«104844_j1735166788248_2_alg».proof.Proof.IdealBlocks

set_option maxRecDepth 16384

noncomputable section

namespace Cert.KernelIdeal.Val

open Cert.KernelIdeal Cert.KernelIdeal.Gen Cert.KernelIdeal.Acc
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- The partial product at point number n, entry (r, q), is chunk n % 8 of the entry it belongs to. -/
theorem part_eq (c : Dev nD) (n : ℕ) (hn : n < cfg0.N) (hn' : n < 128) (r : Fin 2048) (q : Fin 1024) :
    k0_pay1 (F := Ideal) (iblk m c 0 ⟨n, hn⟩) (iblk m c 1 ⟨n, hn⟩) (iblk m c 2 ⟨n, hn⟩) (ix2 r q)
      = chunk (m ((c : Thread nD τ).loc main_arg0)) (m ((c : Thread nD τ).loc main_arg1)) (m ((c : Thread nD τ).loc main_arg2)) (xrow (pI n hn') r) (wrow (pJ n hn') q) (n % 8) := by
  have hq : q.val < 1024 := q.isLt
  refine (pay1_apply (iblk m c 0 ⟨n, hn⟩) (iblk m c 1 ⟨n, hn⟩) (iblk m c 2 ⟨n, hn⟩) r q).trans ?_
  rw [chunk_of_lt _ _ _ _ _ _ (by omega : n % 8 < 8)]
  refine Finset.sum_congr rfl fun k _ => ?_
  rw [blk_x m c ⟨n, hn⟩ hn', blk_w m c ⟨n, hn⟩ hn', blk_s m c ⟨n, hn⟩ hn']
  unfold deq
  refine congrArg₂ (· * ·) rfl (congrArg₂ (· * ·) rfl (congrArg _ ?_))
  refine funext fun a => Fin.ext ?_
  match a with
  | ⟨0, _⟩ => show n / 8 % 4 * 8 + q.val / 128 = (n / 8 % 4 * 1024 + q.val) / 128; omega
  | ⟨1, _⟩ => rfl

/-- After point number n the output's staging buffer holds, entry by entry, the contributions of chunks
    0, …, n % 8 to the entry of the product it belongs to. -/
theorem acc_eq (c : Dev nD) : ∀ (n : ℕ) (hn : n < cfg0.N) (hn' : n < 128) (r : Fin 2048) (q : Fin 1024),
    accAt m c n hn (ix2 r q)
      = ∑ a ∈ Finset.range (n % 8 + 1), chunk (m ((c : Thread nD τ).loc main_arg0)) (m ((c : Thread nD τ).loc main_arg1)) (m ((c : Thread nD τ).loc main_arg2)) (xrow (pI n hn') r) (wrow (pJ n hn') q) a
  | 0, hn, hn', r, q => by
    show _ = ∑ a ∈ Finset.range 1, _
    rw [Finset.sum_range_one]
    exact part_eq m c 0 hn hn' r q
  | n + 1, hn, hn', r, q => by
    have hdef : accAt m c (n + 1) hn = if (n + 1) % 8 = 0 then
          k0_pay1 (iblk m c 0 ⟨n + 1, hn⟩) (iblk m c 1 ⟨n + 1, hn⟩) (iblk m c 2 ⟨n + 1, hn⟩)
        else k0_pay2 (iblk m c 0 ⟨n + 1, hn⟩) (iblk m c 1 ⟨n + 1, hn⟩) (iblk m c 2 ⟨n + 1, hn⟩)
          (accAt m c n (Nat.lt_of_succ_lt hn)) := rfl
    rw [hdef]
    have hp := part_eq m c (n + 1) hn hn' r q
    by_cases h0 : (n + 1) % 8 = 0
    · rw [if_pos h0, h0]
      rw [h0] at hp
      show _ = ∑ a ∈ Finset.range 1, _
      rw [Finset.sum_range_one]
      exact hp
    · rw [if_neg h0]
      have hn1 : n < 128 := by omega
      have eI : pI (n + 1) hn' = pI n hn1 := Fin.ext (by show (n + 1) / 32 = n / 32; omega)
      have eJ : pJ (n + 1) hn' = pJ n hn1 := Fin.ext (by show (n + 1) / 8 % 4 = n / 8 % 4; omega)
      have eK : (n + 1) % 8 = n % 8 + 1 := by omega
      rw [eK, eI, eJ] at hp
      rw [eK, Finset.sum_range_succ, eI, eJ, ← acc_eq c n (Nat.lt_of_succ_lt hn) hn1 r q]
      refine (pay2_apply (iblk m c 0 ⟨n + 1, hn⟩) (iblk m c 1 ⟨n + 1, hn⟩) (iblk m c 2 ⟨n + 1, hn⟩)
        (accAt m c n (Nat.lt_of_succ_lt hn)) (ix2 r q)).trans ?_
      exact congrArg₂ (· + ·) rfl hp

/-- What a point that writes back writes: its block of the specification's function of the arguments. -/
theorem flushed_eq (c : Dev nD) (t : Fin cfg0.N) (hf : (cfg0.win 3).flush t = true) :
    (dats m 0 c).flushed 3 t = ((cfg0.win 3).blk t).view.read (Elt Ideal) (G (m ((c : Thread nD τ).loc main_arg0)) (m ((c : Thread nD τ).loc main_arg1)) (m ((c : Thread nD τ).loc main_arg2))) := by
  have ht : t.val < 128 := lt_of_lt_of_eq t.isLt (show cfg0.N = 128 from N_0)
  have h7 : t.val % 8 = 7 := (flush0_3 t).mp hf
  obtain ⟨-, -, -, -, -, -, e6, e7⟩ := idx_facts t
  show (cfg0.win 3).cut (grid0.coords t) ((dats m 0 c).after 3 t) = _
  rw [after3]
  funext y
  obtain ⟨r, q, rfl⟩ : ∃ (r : Fin 2048) (q : Fin 1024), y = ix2 r q := ⟨y 0, y 1, eq_ix2 y⟩
  show accAt m c t.val t.isLt (ix2 r q) = G (m ((c : Thread nD τ).loc main_arg0)) (m ((c : Thread nD τ).loc main_arg1)) (m ((c : Thread nD τ).loc main_arg2)) (((cfg0.win 3).blk t).view.emb (ix2 r q))
  have he : ((cfg0.win 3).blk t).view.emb (ix2 r q) = ix2 (xrow (pI t.val ht) r) (wrow (pJ t.val ht) q) :=
    funext fun a => Fin.ext (by
      match a with
      | ⟨0, _⟩ => show win0_3.index t (0 : Fin 2) * 2048 + 1 * r.val = t.val / 32 * 2048 + r.val; omega
      | ⟨1, _⟩ => show win0_3.index t (1 : Fin 2) * 1024 + 1 * q.val = t.val / 8 % 4 * 1024 + q.val; omega)
  rw [he, acc_eq m c t.val t.isLt ht r q, show t.val % 8 + 1 = 8 by omega]
  exact sum_chunks _ _ _ _ _

/-- Every block of the result array is some writing-back point's. -/
theorem idx_onto : ∀ (b0 : Fin 4) (b1 : Fin 4), ∃ t : Fin cfg0.N, t.val % 8 = 7 ∧ win0_3.index t = ![b0.val, b1.val] :=
  (by decide +kernel : ∀ (b0 : Fin 4) (b1 : Fin 4), ∃ t : Fin grid0.N, t.val % 8 = 7 ∧ win0_3.index t = ![b0.val, b1.val])

/-- An index of the array is in point t's block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v4).slice (win0_3.rect t)).set ↔ _
  rw [View.set_slice_whole, Rect.mem_set_unit]
  exact Iff.rfl

/-- The written-back blocks cover the result array. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, h7, ht⟩ := idx_onto ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, (flush0_3 t).mpr h7, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The result array after the run is the specification's function of the three arguments. -/
theorem final (c : Dev nD) : (dats m 0 c).arrAt 3 cfg0.N = G (m ((c : Thread nD τ).loc main_arg0)) (m ((c : Thread nD τ).loc main_arg1)) (m ((c : Thread nD τ).loc main_arg2)) :=
  (dats m 0 c).arrAt_eq_of_cover 3 (G (m ((c : Thread nD τ).loc main_arg0)) (m ((c : Thread nD τ).loc main_arg1)) (m ((c : Thread nD τ).loc main_arg2))) (fun t hf => flushed_eq m c t hf) cover

/-- The run of the idealized kernel: it terminates, faults nowhere, leaves the result array at the
    specification's function of the arguments and the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Val

end
-- ==== Proof.RefValue.lean ====
/-
  The reference at the extended reals is the block-scaled product of the specification: entry (m, n) of its
  result is the sum over k of X (m, k) times W (n, k) times the scale of W's 128 × 128 tile. The reference
  reaches the tile's scale by viewing W as 32 × 128 × 32 × 128 and broadcasting the 32 × 32 scales along the two
  axes of extent 128; entry (n, k) of W sits at (n / 128, n % 128, k / 128, k % 128) of that view.
-/
import proofs.«104844_j1735166788248_2_alg».proof.Proof.Gen.ReferenceIdeal.Read
import proofs.«104844_j1735166788248_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Spec

/-- The reference's result, as a function of its three arguments, is the specification's function. -/
theorem ref_eq (X : (⟨S8192x4096, .f32⟩ : BufTy).Contents (Elt Ideal)) (W : (⟨S4096x4096, .f32⟩ : BufTy).Contents (Elt Ideal))
    (Sc : (⟨S32x32, .f32⟩ : BufTy).Contents (Elt Ideal)) :
    val_main_v5 (F := Ideal) X W Sc = G X W Sc := by
  funext i
  rw [val_main_v5_apply]
  show _ = ∑ k : Fin 4096, X (ix2 (i 0) k) * deq W Sc (i 1) k
  refine Finset.sum_congr rfl fun k _ => ?_
  rw [val_main_v4_apply, val_main_v3_apply, val_main_v0_apply, val_main_v2_apply, val_main_v1_apply]
  have hi : (i 1).val < 4096 := (i 1).isLt
  have hk : k.val < 4096 := k.isLt
  have e0 : lidx_main_v5 i k = ix2 (i 0) k := funext fun a => Fin.ext (by
    match a with
    | ⟨0, _⟩ => rfl
    | ⟨1, _⟩ => rfl)
  have e1 : idx_main_v0 (idx_main_v4 (ridx_main_v5 i k)) = ix2 (i 1) k := funext fun a => Fin.ext (by
    match a with
    | ⟨0, _⟩ => dsimp only [idx_main_v0, idx_main_v4, ridx_main_v5, ix2]; omega
    | ⟨1, _⟩ => dsimp only [idx_main_v0, idx_main_v4, ridx_main_v5, ix2]; omega)
  have e2 : idx_main_v1 (idx_main_v2 (idx_main_v4 (ridx_main_v5 i k)))
      = ix2 (⟨(i 1).val / 128, by omega⟩ : Fin 32) (⟨k.val / 128, by omega⟩ : Fin 32) := funext fun a => Fin.ext (by
    match a with
    | ⟨0, _⟩ => dsimp only [idx_main_v1, idx_main_v2, idx_main_v4, ridx_main_v5, ix2]; omega
    | ⟨1, _⟩ => dsimp only [idx_main_v1, idx_main_v2, idx_main_v4, ridx_main_v5, ix2]; omega)
  rw [e0, e1, e2]
  rfl

end Cert.ReferenceIdeal.RefValue

end
-- ==== Proof.lean ====
/-
  The block-scaled matrix product: a kernel that accumulates, over a grid of 4 × 4 output blocks and 8 chunks of
  the reduction axis, the product of a left block with a right block whose rows are scaled group by group,
  against a reference that scales the whole weight tile by tile and takes one matrix product.

  Both programs run to the end and leave their arguments unchanged. The kernel's frame rests on the carried
  output block: what the staging buffer holds after each grid point, by recursion on the point. At the extended
  reals both results are, entry by entry, the sum over the whole reduction axis of X (m, k) · W (n, k) ·
  Sc (n / 128, k / 128); the kernel reaches it as a sum of eight chunk sums, the reference as one sum, and the
  two agree by commutativity and associativity of addition alone, so the finiteness of the inputs is not used.
  The idealization rewrote nothing, so there is nothing to preserve.
-/
import proofs.«104844_j1735166788248_2_alg».proof.Defs
import proofs.«104844_j1735166788248_2_alg».proof.Proof.Gen.Kernel
import proofs.«104844_j1735166788248_2_alg».proof.Proof.Gen.KernelIdeal
import proofs.«104844_j1735166788248_2_alg».proof.Proof.Gen.ReferenceIdeal
import proofs.«104844_j1735166788248_2_alg».proof.Proof.Gen.Pre_finite_inputs
import proofs.«104844_j1735166788248_2_alg».proof.Proof.BitsFrameRun
import proofs.«104844_j1735166788248_2_alg».proof.Proof.IdealValue
import proofs.«104844_j1735166788248_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Acc.frame m ρ

/-- So does its idealization. -/
theorem frame_ki : Cert.frame_KernelIdeal := fun m ρ _ => Cert.KernelIdeal.Acc.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the block-scaled product of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq]
  exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
